-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x50x128 : Shape := ⟨3, ![16384, 50, 128]⟩
abbrev S128x256 : Shape := ⟨2, ![128, 256]⟩
abbrev S1x128 : Shape := ⟨2, ![1, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x50x128 : S_.BroadcastsInDim S16384x50x128 (![] : Fin 0 → Fin S16384x50x128.rank)
  reducesTo_S16384x50x128_S_d0_1_2 : S16384x50x128.ReducesTo [0, 1, 2] S_
  bcast_S_S128x256 : S_.BroadcastsInDim S128x256 (![] : Fin 0 → Fin S128x256.rank)
  reducesTo_S128x256_S_d0_1 : S128x256.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  main_v23

def fn {F : FTy → Type} [FloatOps F] (main_arg0 : FVec F S16384x128 .f32) (main_arg1 : FVec F S16384x50x128 .f32) (main_arg2 : FVec F S16384x50x128 .f32) (main_arg3 : FVec F S128x256 .f32) (main_arg4 : FVec F S1x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x50x128 .f32 := Host.absf main_arg1
  let main_cst_0 : FVec F S_ .f32 := constant S_ .f32 0x7F800000#32
  let main_v5 : FVec F S16384x50x128 .f32 := broadcastInDim S16384x50x128 ![] bcast_S_S16384x50x128 main_cst_0
  let main_v6 : IVec S16384x50x128 1 := cmpf .olt main_v4 main_v5
  let main_c_1 : IVec S_ 1 := constantI S_ 1 1#1
  let main_v7 : IVec S_ 1 := (fun x v => Host.reduce IntOp.andi x v reducesTo_S16384x50x128_S_d0_1_2 h_S_) main_v6 main_c_1
  let main_v8 : IVec S_ 1 := andi main_v3 main_v7
  let main_v9 : FVec F S16384x50x128 .f32 := Host.absf main_arg2
  let main_cst_2 : FVec F S_ .f32 := constant S_ .f32 0x7F800000#32
  let main_v10 : FVec F S16384x50x128 .f32 := broadcastInDim S16384x50x128 ![] bcast_S_S16384x50x128 main_cst_2
  let main_v11 : IVec S16384x50x128 1 := cmpf .olt main_v9 main_v10
  let main_c_3 : IVec S_ 1 := constantI S_ 1 1#1
  let main_v12 : IVec S_ 1 := (fun x v => Host.reduce IntOp.andi x v reducesTo_S16384x50x128_S_d0_1_2 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_v13 main_v16
-- ==== Kernel.lean ====
abbrev S16384x128 : Shape := ⟨2, ![16384, 128]⟩
abbrev S16384x50x128 : Shape := ⟨3, ![16384, 50, 128]⟩
abbrev S128x256 : Shape := ⟨2, ![128, 256]⟩
abbrev S1x128 : Shape := ⟨2, ![1, 128]⟩
abbrev S128x128 : Shape := ⟨2, ![128, 128]⟩
abbrev S128x50x128 : Shape := ⟨3, ![128, 50, 128]⟩
abbrev S6400x128 : Shape := ⟨2, ![6400, 128]⟩
abbrev S128x1x128 : Shape := ⟨3, ![128, 1, 128]⟩
abbrev S1x1x128 : Shape := ⟨3, ![1, 1, 128]⟩
abbrev S128x50 : Shape := ⟨2, ![128, 50]⟩
abbrev S128x50x1 : Shape := ⟨3, ![128, 50, 1]⟩
abbrev S128x1 : Shape := ⟨2, ![128, 1]⟩
abbrev S128x1x1 : Shape := ⟨3, ![128, 1, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x128, .f32⟩
  | .hbm, ⟨1, _⟩ => ⟨S16384x50x128, .f32⟩
  | .hbm, ⟨2, _⟩ => ⟨S16384x50x128, .f32⟩
  | .hbm, ⟨3, _⟩ => ⟨S128x256, .f32⟩
  | .hbm, ⟨4, _⟩ => ⟨S1x128, .f32⟩
  | .hbm, ⟨5, _⟩ => ⟨S16384x128, .f32⟩
  | .local _ .vmem, ⟨0, _⟩ => ⟨S128x128, .f32⟩
  | .local _ .vmem, ⟨1, _⟩ => ⟨S128x128, .f32⟩
  | .local _ .vmem, ⟨2, _⟩ => ⟨S128x50x128, .f32⟩
  | .local _ .vmem, ⟨3, _⟩ => ⟨S128x50x128, .f32⟩
  | .local _ .vmem, ⟨4, _⟩ => ⟨S128x50x128, .f32⟩
  | .local _ .vmem, ⟨5, _⟩ => ⟨S128x50x128, .f32⟩
  | .local _ .vmem, ⟨6, _⟩ => ⟨S128x256, .f32⟩
  | .local _ .vmem, ⟨7, _⟩ => ⟨S1x128, .f32⟩
  | .local _ .vmem, ⟨8, _⟩ => ⟨S128x128, .f32⟩
  | .local _ .vmem, ⟨9, _⟩ => ⟨S128x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x50x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x50x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128x50x128_S128x50x128_0_0_0 : ∀ a, (![0, 0, 0] : Fin 3 → Nat) a + S128x50x128.size a ≤ S128x50x128.size a
  h_S128x50x128 : 0 < S128x50x128.numel
  inb_S128x256_S128x256_0_0 : ∀ a, (![0, 0] : Fin 2 → Nat) a + S128x256.size a ≤ S128x256.size a
  h_S128x256 : 0 < S128x256.numel
  slices_S128x256_o0_0_S128x128 : S128x256.Slices ![0, 0] S128x128
  slices_S128x256_o0_128_S128x128 : S128x256.Slices ![0, 128] S128x128
  shapeCasts_S128x50x128_S6400x128 : S128x50x128.ShapeCasts S6400x128
  shapeCasts_S6400x128_S128x50x128 : S6400x128.ShapeCasts S128x50x128
  shapeCasts_S128x128_S128x1x128 : S128x128.ShapeCasts S128x1x128
  broadcasts_S128x1x128_S128x50x128 : S128x1x128.Broadcasts S128x50x128
  inb_S1x128_S1x128_0_0 : ∀ a, (![0, 0] : Fin 2 → Nat) a + S1x128.size a ≤ S1x128.size a
  h_S1x128 : 0 < S1x128.numel
  shapeCasts_S1x128_S1x1x128 : S1x128.ShapeCasts S1x1x128
  broadcasts_S1x1x128_S128x50x128 : S1x1x128.Broadcasts S128x50x128
  reduces_S128x50x128_S128x50 : S128x50x128.Reduces [2] S128x50
  shapeCasts_S128x50_S128x50x1 : S128x50.ShapeCasts S128x50x1
  reduces_S128x50x1_S128x1 : S128x50x1.Reduces [1] S128x1
  shapeCasts_S128x1_S128x1x1 : S128x1.ShapeCasts S128x1x1
  broadcasts_S128x1x1_S128x50x1 : S128x1x1.Broadcasts S128x50x1
  broadcasts_S128x50x1_S128x50x128 : S128x50x1.Broadcasts S128x50x128
  reduces_S128x50x128_S128x128 : S128x50x128.Reduces [1] S128x128
  dot_S128x128_S128x128_S128x128_1_1_0_0_n_n_wf : DotDims.WF S128x128 S128x128 S128x128 [1] [1] [0] [0] [] []
  dot_S6400x128_S128x128_S6400x128_1_1_0_0_n_n_wf : DotDims.WF S6400x128 S128x128 S6400x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S16384x128.size a
  hwx0_0 : ∀ i : grid0.Coords, EltTy.bits .f32 = 32 ∨ (Rect.block (s := S16384x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x50x128.size a ≤ S16384x50x128.size a
  hwx0_1 : ∀ i : grid0.Coords, EltTy.bits .f32 = 32 ∨ (Rect.block (s := S16384x50x128) S128x50x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x50x128.size a ≤ S16384x50x128.size a
  hwx0_2 : ∀ i : grid0.Coords, EltTy.bits .f32 = 32 ∨ (Rect.block (s := S16384x50x128) S128x50x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S16384x128.size a
  hwx0_5 : ∀ i : grid0.Coords, EltTy.bits .f32 = 32 ∨ (Rect.block (s := S16384x128) S128x128.size (cc0_transform_5 i) (hinb0_5 i)).WholeWords (EltTy.packing .f32)

variable [Facts₀]

def dot_S128x128_S128x128_S128x128_1_1_0_0_n_n : DotDims S128x128 S128x128 S128x128 where
  lhsContracting := [1]
  rhsContracting := [1]
  lhsNonContracting := [0]
  rhsNonContracting := [0]
  lhsBatch := []
  rhsBatch := []
  wf := dot_S128x128_S128x128_S128x128_1_1_0_0_n_n_wf
def dot_S6400x128_S128x128_S6400x128_1_1_0_0_n_n : DotDims S6400x128 S128x128 S6400x128 where
  lhsContracting := [1]
  rhsContracting := [1]
  lhsNonContracting := [0]
  rhsNonContracting := [0]
  lhsBatch := []
  rhsBatch := []
  wf := dot_S6400x128_S128x128_S6400x128_1_1_0_0_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x50x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x50x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x128 : Shape := ⟨2, ![16384, 128]⟩
abbrev S16384x50x128 : Shape := ⟨3, ![16384, 50, 128]⟩
abbrev S128x256 : Shape := ⟨2, ![128, 256]⟩
abbrev S1x128 : Shape := ⟨2, ![1, 128]⟩
abbrev S16384x1x128 : Shape := ⟨3, ![16384, 1, 128]⟩
abbrev S16384x50x256 : Shape := ⟨3, ![16384, 50, 256]⟩
abbrev S_ : Shape := ⟨0, ![]⟩
abbrev S16384x50x1 : Shape := ⟨3, ![16384, 50, 1]⟩
abbrev S16384x1 : Shape := ⟨2, ![16384, 1]⟩
abbrev S16384x1x1 : Shape := ⟨3, ![16384, 1, 1]⟩

abbrev nBuf : Space → Nat
  | .hbm => 31
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x50x128, .f32⟩
  | .hbm, ⟨2, _⟩ => ⟨S16384x50x128, .f32⟩
  | .hbm, ⟨3, _⟩ => ⟨S128x256, .f32⟩
  | .hbm, ⟨4, _⟩ => ⟨S1x128, .f32⟩
  | .hbm, ⟨5, _⟩ => ⟨S16384x1x128, .f32⟩
  | .hbm, ⟨6, _⟩ => ⟨S16384x50x128, .f32⟩
  | .hbm, ⟨7, _⟩ => ⟨S16384x50x256, .f32⟩
  | .hbm, ⟨8, _⟩ => ⟨S16384x50x128, .f32⟩
  | .hbm, ⟨9, _⟩ => ⟨S_, .f32⟩
  | .hbm, ⟨10, _⟩ => ⟨S16384x50x128, .f32⟩
  | .hbm, ⟨11, _⟩ => ⟨S16384x50x128, .f32⟩
  | .hbm, ⟨12, _⟩ => ⟨S16384x50x1, .f32⟩
  | .hbm, ⟨13, _⟩ => ⟨S_, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1x1, .f32⟩
  | .hbm, ⟨19, _⟩ => ⟨S16384x50x1, .f32⟩
  | .hbm, ⟨20, _⟩ => ⟨S16384x50x1, .f32⟩
  | .hbm, ⟨21, _⟩ => ⟨S16384x50x1, .f32⟩
  | .hbm, ⟨22, _⟩ => ⟨S_, .f32⟩
  | .hbm, ⟨23, _⟩ => ⟨S16384x1, .f32⟩
  | .hbm, ⟨24, _⟩ => ⟨S16384x1x1, .f32⟩
  | .hbm, ⟨25, _⟩ => ⟨S16384x50x1, .f32⟩
  | .hbm, ⟨26, _⟩ => ⟨S16384x50x1, .f32⟩
  | .hbm, ⟨27, _⟩ => ⟨S16384x50x128, .f32⟩
  | .hbm, ⟨28, _⟩ => ⟨S16384x50x128, .f32⟩
  | .hbm, ⟨29, _⟩ => ⟨S_, .f32⟩
  | .hbm, ⟨30, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  bcast_S16384x128_S16384x1x128_0_2 : S16384x128.BroadcastsInDim S16384x1x128 (![0, 2] : Fin 2 → Fin S16384x1x128.rank)
  bcast_S16384x1x128_S16384x50x128_0_1_2 : S16384x1x128.BroadcastsInDim S16384x50x128 (![0, 1, 2] : Fin 3 → Fin S16384x50x128.rank)
  concatenates_S16384x50x128_S16384x50x128_S16384x50x256_d2 : Shape.Concatenates [S16384x50x128, S16384x50x128] S16384x50x256 2
  bcast_S_S16384x50x128 : S_.BroadcastsInDim S16384x50x128 (![] : Fin 0 → Fin S16384x50x128.rank)
  reducesTo_S16384x50x1_S16384x1_d1 : S16384x50x1.ReducesTo [1] S16384x1
  h_S_ : 0 < S_.numel
  bcast_S_S16384x1 : S_.BroadcastsInDim S16384x1 (![] : Fin 0 → Fin S16384x1.rank)
  bcast_S16384x1_S16384x1x1_0_2 : S16384x1.BroadcastsInDim S16384x1x1 (![0, 2] : Fin 2 → Fin S16384x1x1.rank)
  bcast_S16384x1x1_S16384x50x1_0_1_2 : S16384x1x1.BroadcastsInDim S16384x50x1 (![0, 1, 2] : Fin 3 → Fin S16384x50x1.rank)
  bcast_S16384x50x1_S16384x50x128_0_1_2 : S16384x50x1.BroadcastsInDim S16384x50x128 (![0, 1, 2] : Fin 3 → Fin S16384x50x128.rank)
  reducesTo_S16384x50x128_S16384x128_d1 : S16384x50x128.ReducesTo [1] S16384x128
  dot_S16384x50x256_S128x256_S16384x50x128_2_1_01_0_n_n_wf : DotDims.WF S16384x50x256 S128x256 S16384x50x128 [2] [1] [0, 1] [0] [] []
  dot_S16384x50x128_S1x128_S16384x50x1_2_1_01_0_n_n_wf : DotDims.WF S16384x50x128 S1x128 S16384x50x1 [2] [1] [0, 1] [0] [] []

variable [Facts₀]

def dot_S16384x50x256_S128x256_S16384x50x128_2_1_01_0_n_n : DotDims S16384x50x256 S128x256 S16384x50x128 where
  lhsContracting := [2]
  rhsContracting := [1]
  lhsNonContracting := [0, 1]
  rhsNonContracting := [0]
  lhsBatch := []
  rhsBatch := []
  wf := dot_S16384x50x256_S128x256_S16384x50x128_2_1_01_0_n_n_wf
def dot_S16384x50x128_S1x128_S16384x50x1_2_1_01_0_n_n : DotDims S16384x50x128 S1x128 S16384x50x1 where
  lhsContracting := [2]
  rhsContracting := [1]
  lhsNonContracting := [0, 1]
  rhsNonContracting := [0]
  lhsBatch := []
  rhsBatch := []
  wf := dot_S16384x50x128_S1x128_S16384x50x1_2_1_01_0_n_n_wf

class Facts : Prop extends Facts₀ where

variable [Facts]
-- ==== Proof.RowSpec.lean ====
/-
  The function both programs compute, one batch row at a time.

  For one row of the batch the inputs are a query `q : [128]`, fifty keys `k : [50, 128]`, fifty values `v : [50, 128]`,
  and the two weight matrices `w1 : [128, 256]`, `w2 : [128]`. With `w1` cut into its query half (columns 0–127) and
  its key half (columns 128–255),
    hiddenUnit m h = max (Σ_f k m f · w1 h (128 + f)  +  Σ_f q f · w1 h f) 0
    score m    = Σ_h hiddenUnit m h · w2 h
    weight m   = exp (score m − max_m' score m') / Σ_m' exp (score m' − max_m'' score m'')
    out d      = Σ_m v m d · weight m
  over the extended reals, the ReLU's zero and the maximum's starting value being whatever the two printed words denote.
  Two laws are proved here: a sum over 256 columns is the sum over the first 128 plus the sum over the last 128, and a
  fold of `max` is at least its starting value, so taking the maximum with that value once more changes nothing.
-/
import Idealize.ShloMosaic.PureOps.Ideal
import Idealize.ShloMosaic.Lib.ValueIdx

noncomputable section

open scoped BigOperators

namespace Cert.RowSpec

open Idealize.ShloMosaic Idealize.ShloMosaic.ValueIdx

/-- The word both programs print for the ReLU's zero, as an extended real. -/
abbrev zeroW : EReal := Ideal.ofBits .f32 0x00000000#32
/-- The word both programs print for the maximum's starting value (minus infinity), as an extended real. -/
abbrev negInfW : EReal := Ideal.ofBits .f32 0xFF800000#32

/-- Column `f` of the query half of the first weight matrix. -/
abbrev lo (f : Fin 128) : Fin 256 := ⟨f.val, by omega⟩
/-- Column `f` of the key half of the first weight matrix. -/
abbrev hi (f : Fin 128) : Fin 256 := ⟨128 + f.val, by omega⟩

/-- Hidden unit `h` for key `m`: the ReLU of the key's and the query's projections. -/
def hiddenUnit (q : Fin 128 → EReal) (k : Fin 50 → Fin 128 → EReal) (w1 : Fin 128 → Fin 256 → EReal) (m : Fin 50) (h : Fin 128) : EReal :=
  max ((∑ f : Fin 128, k m f * w1 h (hi f)) + ∑ f : Fin 128, q f * w1 h (lo f)) zeroW

/-- The score of key `m`. -/
def score (q : Fin 128 → EReal) (k : Fin 50 → Fin 128 → EReal) (w1 : Fin 128 → Fin 256 → EReal) (w2 : Fin 128 → EReal) (m : Fin 50) : EReal :=
  ∑ h : Fin 128, hiddenUnit q k w1 m h * w2 h

/-- The largest of fifty scores, as a fold of `max` from the printed starting value. -/
def top (s : Fin 50 → EReal) : EReal := (Finset.univ : Finset (Fin 50)).fold max negInfW s

/-- The softmax weight of key `m`, with the maximum subtracted before the exponential. -/
def weight (s : Fin 50 → EReal) (m : Fin 50) : EReal :=
  Ideal.div (Ideal.exp (s m - top s)) (∑ m' : Fin 50, Ideal.exp (s m' - top s))

/-- Output entry `d` of the row: the values averaged with the softmax weights. -/
def rowOut (q : Fin 128 → EReal) (k v : Fin 50 → Fin 128 → EReal) (w1 : Fin 128 → Fin 256 → EReal) (w2 : Fin 128 → EReal) (d : Fin 128) : EReal :=
  ∑ m : Fin 50, v m d * weight (score q k w1 w2) m

/-- The whole result `[16384, 128]` as one function of the five argument arrays: entry `(b, d)` is the row function of row `b` of
    the queries, keys and values, at `d`. -/
def G (x0 : (⟨2, ![16384, 128]⟩ : Shape).Idx → EReal) (x1 x2 : (⟨3, ![16384, 50, 128]⟩ : Shape).Idx → EReal)
    (x3 : (⟨2, ![128, 256]⟩ : Shape).Idx → EReal) (x4 : (⟨2, ![1, 128]⟩ : Shape).Idx → EReal) :
    (⟨2, ![16384, 128]⟩ : Shape).Idx → EReal :=
  fun i => rowOut (fun f => x0 (ix2 (n0 := 16384) (i 0) f)) (fun m f => x1 (ix3 (n0 := 16384) (i 0) m f))
    (fun m f => x2 (ix3 (n0 := 16384) (i 0) m f)) (fun h f => x3 (ix2 h f)) (fun h => x4 (ix2 (0 : Fin 1) h)) (i 1)

/-- `G` at an entry written by coordinates. -/
theorem G_ix2 (x0 : (⟨2, ![16384, 128]⟩ : Shape).Idx → EReal) (x1 x2 : (⟨3, ![16384, 50, 128]⟩ : Shape).Idx → EReal)
    (x3 : (⟨2, ![128, 256]⟩ : Shape).Idx → EReal) (x4 : (⟨2, ![1, 128]⟩ : Shape).Idx → EReal) (b : Fin 16384) (d : Fin 128) :
    G x0 x1 x2 x3 x4 (ix2 b d)
      = rowOut (fun f => x0 (ix2 b f)) (fun m f => x1 (ix3 b m f)) (fun m f => x2 (ix3 b m f)) (fun h f => x3 (ix2 h f))
          (fun h => x4 (ix2 (0 : Fin 1) h)) d := rfl

/-- A sum over the 256 columns is the sum over the first 128 plus the sum over the last 128. -/
theorem sum_halves (g : Fin 256 → EReal) : ∑ c : Fin 256, g c = (∑ f : Fin 128, g (lo f)) + ∑ f : Fin 128, g (hi f) :=
  Fin.sum_univ_add (a := 128) (b := 128) g

/-- Taking the maximum with the fold's own starting value changes nothing. -/
theorem max_top (s : Fin 50 → EReal) : max negInfW (top s) = top s :=
  max_eq_right ((Finset.le_fold_max _).mpr (Or.inl le_rfl))

end Cert.RowSpec

end
-- ==== Proof.LibRank3Layout.lean ====
/-
  Rank-3 arrays read at coordinates, for any extents and element type: what a kernel that keeps a batch of matrices
  `[a, b, c]` in one vector meets when it folds the two leading axes together for a matrix product, adds or drops a unit
  axis around a reduction that keeps its dimension, spreads a per-row or per-entry value back over the block, and reduces
  over the middle or the last axis.
  • FOLDED ROWS: `[a, b, c]` viewed as `[n, c]` with `n = a·b` and back — row `p·b + m` of the matrix is row `m` of slab `p`
    (`shapeCast_abc_nc_apply`, `shapeCast_nc_abc_apply`).
  • UNIT AXES ADDED: `[a, c] → [a, 1, c]` and `[a, b] → [a, b, 1]` (`shapeCast_ac_a1c_apply`, `shapeCast_ab_ab1_apply`).
  • SPREADS: `[a, 1, c] → [a, b, c]`, `[1, 1, c] → [a, b, c]`, `[a, b, 1] → [a, b, c]` read the operand with `0` on its unit axes
    (`broadcastTo_a1c_abc_apply`, `broadcastTo_11c_abc_apply`, `broadcastTo_ab1_abc_apply`).
  • REDUCTIONS over the extended reals: a sum over the last axis and over the middle axis as a `Fin`-indexed sum, a
    maximum over the middle axis as the fold of `max` from the starting value, on a vector unit
    (`multiReduction_add_last`, `multiReduction_add_mid`, `multiReduction_max_mid`) and for the host's
    `stablehlo.reduce` with a maximum body (`hostReduce_max_mid`).
-/
import Idealize.ShloMosaic.Lib.Pipeline.Value
import Idealize.ShloMosaic.Lib.ValueIdx
import Idealize.ShloMosaic.PureOps.Ideal.Laws

noncomputable section

open scoped BigOperators

namespace Cert.LibRank3

open Idealize.ShloMosaic Idealize.ShloMosaic.ValueIdx

variable {α : Type}

/-! ## The two leading axes folded into one, and unfolded -/

/-- An `[a, b, c]` array viewed as `[n, c]` (`n = a·b`) reads, at row `r = p·b + m` and column `f`, the operand at `(p, m, f)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (m : Fin b) (f : Fin c) (r : Fin n)
    (hr : r.val = p.val * b + m.val) :
    shapeCast ⟨2, ![n, c]⟩ x h (ix2 r f) = x (ix3 p m f) :=
  shapeCast_apply x h _ _ (by
    rw [Shape.rowMajor_val_three, Shape.rowMajor_val_two]
    show (p.val * b + m.val) * c + f.val = r.val * c + f.val
    rw [hr])

/-- An `[n, c]` matrix (`n = a·b`) viewed as `[a, b, c]` reads, at `(p, m, f)`, the operand at row `r = p·b + m`, column `f`. -/
theorem shapeCast_nc_abc_apply {a b c n : ℕ} (x : (⟨2, ![n, c]⟩ : Shape).Idx → α)
    (h : (⟨2, ![n, c]⟩ : Shape).ShapeCasts ⟨3, ![a, b, c]⟩) (p : Fin a) (m : Fin b) (f : Fin c) (r : Fin n)
    (hr : r.val = p.val * b + m.val) :
    shapeCast ⟨3, ![a, b, c]⟩ x h (ix3 p m f) = x (ix2 r f) :=
  shapeCast_apply x h _ _ (by
    rw [Shape.rowMajor_val_three, Shape.rowMajor_val_two]
    show r.val * c + f.val = (p.val * b + m.val) * c + f.val
    rw [hr])

/-! ## A unit axis added in the middle or at the end -/

/-- An `[a, c]` matrix cast to `[a, 1, c]` reads, at `(p, u, f)`, the operand at `(p, f)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (f : Fin c) :
    shapeCast ⟨3, ![a, 1, c]⟩ x h (ix3 p u f) = x (ix2 p f) :=
  shapeCast_apply x h _ _ (by
    have hu : u.val = 0 := by omega
    rw [Shape.rowMajor_val_three, Shape.rowMajor_val_two]
    show p.val * c + f.val = (p.val * 1 + u.val) * c + f.val
    rw [hu, Nat.mul_one, Nat.add_zero])

/-- An `[a, b]` matrix cast to `[a, b, 1]` reads, at `(p, m, u)`, the operand at `(p, m)`. -/
theorem shapeCast_ab_ab1_apply {a b : ℕ} (x : (⟨2, ![a, b]⟩ : Shape).Idx → α)
    (h : (⟨2, ![a, b]⟩ : Shape).ShapeCasts ⟨3, ![a, b, 1]⟩) (p : Fin a) (m : Fin b) (u : Fin 1) :
    shapeCast ⟨3, ![a, b, 1]⟩ x h (ix3 p m u) = x (ix2 p m) :=
  shapeCast_apply x h _ _ (by
    have hu : u.val = 0 := by omega
    rw [Shape.rowMajor_val_three, Shape.rowMajor_val_two]
    show p.val * b + m.val = (p.val * b + m.val) * 1 + u.val
    rw [hu, Nat.mul_one, Nat.add_zero])

/-! ## A value spread over the block -/

/-- An `[a, 1, c]` array spread to `[a, b, c]` reads, at `(p, m, f)`, the operand at `(p, 0, f)`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (m : Fin b) (f : Fin c) :
    broadcastTo ⟨3, ![a, b, c]⟩ x h (ix3 p m f) = x (ix3 p (0 : Fin 1) f) := by
  refine broadcastTo_apply x h (ix3 p m f) (ix3 p (0 : Fin 1) f) fun ax => ?_
  match ax with
  | ⟨0, _⟩ =>
    show p.val = if a = 1 then 0 else p.val
    split
    · have := p.isLt; omega
    · rfl
  | ⟨1, _⟩ => rfl
  | ⟨2, _⟩ =>
    show f.val = if c = 1 then 0 else f.val
    split
    · have := f.isLt; omega
    · rfl

/-- A `[1, 1, c]` array spread to `[a, b, c]` reads, at `(p, m, f)`, the operand's one row at `f`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (m : Fin b) (f : Fin c) :
    broadcastTo ⟨3, ![a, b, c]⟩ x h (ix3 p m f) = x (ix3 (0 : Fin 1) (0 : Fin 1) f) := by
  refine broadcastTo_apply x h (ix3 p m f) (ix3 (0 : Fin 1) (0 : Fin 1) f) fun ax => ?_
  match ax with
  | ⟨0, _⟩ => rfl
  | ⟨1, _⟩ => rfl
  | ⟨2, _⟩ =>
    show f.val = if c = 1 then 0 else f.val
    split
    · have := f.isLt; omega
    · rfl

/-- An `[a, b, 1]` array spread to `[a, b, c]` reads, at `(p, m, f)`, the operand at `(p, m, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (m : Fin b) (f : Fin c) :
    broadcastTo ⟨3, ![a, b, c]⟩ x h (ix3 p m f) = x (ix3 p m (0 : Fin 1)) := by
  refine broadcastTo_apply x h (ix3 p m f) (ix3 p m (0 : Fin 1)) fun ax => ?_
  match ax with
  | ⟨0, _⟩ =>
    show p.val = if a = 1 then 0 else p.val
    split
    · have := p.isLt; omega
    · rfl
  | ⟨1, _⟩ =>
    show m.val = if b = 1 then 0 else m.val
    split
    · have := m.isLt; omega
    · rfl
  | ⟨2, _⟩ => rfl

/-! ## Reductions of a rank-3 vector over one axis, on the extended reals -/

section Reductions
variable {φ : FTy}

/-- A sum over the LAST axis of an `[a, b, c]` vector at `(p, m)` is the sum over `k` of the source at `(p, m, k)`. -/
theorem multiReduction_add_last {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (m : Fin b) :
    multiReduction .add [2] ⟨2, ![a, b]⟩ src acc h hφ hacc (ix2 p m) = ∑ k : Fin c, src (ix3 p m k) :=
  (Ideal.multiReduction_add_single src acc h hφ hacc (ix2 p m)).trans
    (Finset.sum_congr rfl fun k _ => congrArg src (funext fun ax => Fin.ext (by
      match ax with
      | ⟨0, _⟩ => rfl
      | ⟨1, _⟩ => rfl
      | ⟨2, _⟩ => rfl)))

/-- A sum over the MIDDLE axis of an `[a, b, c]` vector at `(p, d)` is the sum over `k` of the source at `(p, k, d)`. -/
theorem multiReduction_add_mid {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (d : Fin c) :
    multiReduction .add [1] ⟨2, ![a, c]⟩ src acc h hφ hacc (ix2 p d) = ∑ k : Fin b, src (ix3 p k d) :=
  (Ideal.multiReduction_add_single src acc h hφ hacc (ix2 p d)).trans
    (Finset.sum_congr rfl fun k _ => congrArg src (funext fun ax => Fin.ext (by
      match ax with
      | ⟨0, _⟩ => rfl
      | ⟨1, _⟩ => rfl
      | ⟨2, _⟩ => rfl)))

/-- A maximum over the MIDDLE axis of an `[a, b, c]` vector at `(p, d)` is the fold of `max`, from the starting word's
    value, over `k` of the source at `(p, k, d)`. -/
theorem multiReduction_max_mid {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.maximumf.neutral φ hφ)
    (p : Fin a) (d : Fin c) :
    multiReduction .maximumf [1] ⟨2, ![a, c]⟩ src acc h hφ hacc (ix2 p d)
      = (Finset.univ : Finset (Fin b)).fold max (Ideal.ofBits φ acc) (fun k => src (ix3 p k d)) :=
  (Ideal.multiReduction_maximumf_single src acc h hφ hacc (ix2 p d)).trans
    (Finset.fold_congr fun k _ => congrArg src (funext fun ax => Fin.ext (by
      match ax with
      | ⟨0, _⟩ => rfl
      | ⟨1, _⟩ => rfl
      | ⟨2, _⟩ => rfl)))

/-- The host's `stablehlo.reduce` with a maximum body over the MIDDLE axis of an `[a, b, c]` array at `(p, d)`: the fold
    of `max`, from the initial value, over `k` of the operand at `(p, k, d)`. -/
theorem hostReduce_max_mid {a b c : ℕ} {u : Shape} (x : FVec Ideal ⟨3, ![a, b, c]⟩ φ) (init : u.Idx → Ideal φ)
    (h' : (⟨3, ![a, b, c]⟩ : Shape).ReducesTo [1] ⟨2, ![a, c]⟩) (h : (⟨3, ![a, b, c]⟩ : Shape).Reduces [1] ⟨2, ![a, c]⟩)
    (hu : 0 < u.numel) (p : Fin a) (d : Fin c) :
    Host.reduce (FloatOps.maximumf (F := Ideal) (φ := φ)) x init h' hu (ix2 p d)
      = (Finset.univ : Finset (Fin b)).fold max (init (Shape.Idx.first hu)) (fun k => x (ix3 p k d)) :=
  (Host.reduce_eq_fold_single (FloatOps.maximumf (F := Ideal) (φ := φ)) x init h' h hu (ix2 p d)).trans
    (Finset.fold_congr fun k _ => congrArg x (funext fun ax => Fin.ext (by
      match ax with
      | ⟨0, _⟩ => rfl
      | ⟨1, _⟩ => rfl
      | ⟨2, _⟩ => rfl)))

end Reductions

end Cert.LibRank3

end
-- ==== Proof.KernelRow.lean ====
/-
  The kernel body's stored value, read one entry at a time.

  The body holds 128 batch rows at once: a query block `[128, 128]`, a key block and a value block `[128, 50, 128]`, and the
  two weight matrices. Row `p` of what it stores depends only on row `p` of the three blocks, and entry `(p, d)` is
  `RowSpec.rowOut` of that row's query, keys and values at `d`. The stored value is cut here into five stages — the two
  projections (matrix products with the halves of the first weight matrix, the key block's two leading axes folded
  together for its product and unfolded after it), the hidden layer, the scores, the exponentials with the row maximum
  subtracted, the normalized weights — and each stage is read at coordinates from the one before it. A change of float
  format is the identity on the extended reals, so the bf16 operands of the matrix products are the f32 blocks themselves.
-/
import proofs.«182174_j14654428414369_2_alg».proof.Proof.Gen.KernelIdeal.Skeleton
import proofs.«182174_j14654428414369_2_alg».proof.Proof.RowSpec
import proofs.«182174_j14654428414369_2_alg».proof.Proof.LibRank3Layout
import Idealize.ShloMosaic.Lib.ValueLayout
import Idealize.ShloMosaic.PureOps.Ideal.Laws

noncomputable section

open scoped BigOperators

namespace Cert.KernelIdeal.RowValue

open Cert.KernelIdeal Cert.KernelIdeal.Gen Idealize.ShloMosaic Idealize.ShloMosaic.ValueIdx Cert.RowSpec Cert.LibRank3

/-- The query projection's dimension numbers: `[128, 128] × [128, 128]`, both contracted on their second axis. -/
abbrev Dq : DotDims S128x128 S128x128 S128x128 := dot_S128x128_S128x128_S128x128_1_1_0_0_n_n
/-- The key projection's: `[6400, 128] × [128, 128]`, both contracted on their second axis. -/
abbrev Dk : DotDims S6400x128 S128x128 S6400x128 := dot_S6400x128_S128x128_S6400x128_1_1_0_0_n_n

/-! ## The two matrix products at an entry: a sum over the shared second axis -/

theorem Dq_lhs0 (i : S128x128.Idx) (q : Dq.contr.Idx) : (Dq.lhsIdx i q 0).val = (i 0).val := by
  unfold DotDims.lhsIdx
  rw [dif_neg (show ¬(0 : Fin S128x128.rank) ∈ Dq.lhsBatch by decide), dif_pos (show (0 : Fin S128x128.rank) ∈ Dq.lhsNonContracting by decide)]
  rfl
theorem Dq_lhs1 (i : S128x128.Idx) (q : Dq.contr.Idx) : (Dq.lhsIdx i q 1).val = (q ⟨0, by decide⟩).val :=
  Dq.lhsIdx_val_of_single rfl i q
theorem Dq_rhs0 (i : S128x128.Idx) (q : Dq.contr.Idx) : (Dq.rhsIdx i q 0).val = (i 1).val := by
  unfold DotDims.rhsIdx
  rw [dif_neg (show ¬(0 : Fin S128x128.rank) ∈ Dq.rhsBatch by decide), dif_pos (show (0 : Fin S128x128.rank) ∈ Dq.rhsNonContracting by decide)]
  rfl
theorem Dq_rhs1 (i : S128x128.Idx) (q : Dq.contr.Idx) : (Dq.rhsIdx i q 1).val = (q ⟨0, by decide⟩).val :=
  Dq.rhsIdx_val_of_single rfl i q

/-- The query product at `(p, h)`: the sum over `f` of the left operand at `(p, f)` times the right at `(h, f)`. -/
theorem matmul_q_apply (a b : FVec Ideal S128x128 .bf16) (p h : Fin 128) :
    matmul Dq none a b (constant (F := Ideal) S128x128 .f32 0x00000000#32) (ix2 p h) = ∑ f : Fin 128, a (ix2 p f) * b (ix2 h f) := by
  refine (Ideal.matmul_constant_zero_apply Dq none a b (ix2 p h)).trans ?_
  rw [← Equiv.sum_comp (contrEquiv1 Dq 128 rfl rfl).symm]
  refine Finset.sum_congr rfl fun k _ => ?_
  have hk := contrEquiv1_symm_val Dq 128 rfl rfl k
  have el : Dq.lhsIdx (ix2 p h) ((contrEquiv1 Dq 128 rfl rfl).symm k) = ix2 p k := funext fun ax => Fin.ext (by
    match ax with
    | ⟨0, _⟩ => exact Dq_lhs0 _ _
    | ⟨1, _⟩ => exact (Dq_lhs1 _ _).trans hk)
  have er : Dq.rhsIdx (ix2 p h) ((contrEquiv1 Dq 128 rfl rfl).symm k) = ix2 h k := funext fun ax => Fin.ext (by
    match ax with
    | ⟨0, _⟩ => exact Dq_rhs0 _ _
    | ⟨1, _⟩ => exact (Dq_rhs1 _ _).trans hk)
  rw [el, er]

theorem Dk_lhs0 (i : S6400x128.Idx) (q : Dk.contr.Idx) : (Dk.lhsIdx i q 0).val = (i 0).val := by
  unfold DotDims.lhsIdx
  rw [dif_neg (show ¬(0 : Fin S6400x128.rank) ∈ Dk.lhsBatch by decide), dif_pos (show (0 : Fin S6400x128.rank) ∈ Dk.lhsNonContracting by decide)]
  rfl
theorem Dk_lhs1 (i : S6400x128.Idx) (q : Dk.contr.Idx) : (Dk.lhsIdx i q 1).val = (q ⟨0, by decide⟩).val :=
  Dk.lhsIdx_val_of_single rfl i q
theorem Dk_rhs0 (i : S6400x128.Idx) (q : Dk.contr.Idx) : (Dk.rhsIdx i q 0).val = (i 1).val := by
  unfold DotDims.rhsIdx
  rw [dif_neg (show ¬(0 : Fin S128x128.rank) ∈ Dk.rhsBatch by decide), dif_pos (show (0 : Fin S128x128.rank) ∈ Dk.rhsNonContracting by decide)]
  rfl
theorem Dk_rhs1 (i : S6400x128.Idx) (q : Dk.contr.Idx) : (Dk.rhsIdx i q 1).val = (q ⟨0, by decide⟩).val :=
  Dk.rhsIdx_val_of_single rfl i q

/-- The key product at `(r, h)`: the sum over `f` of the left operand at `(r, f)` times the right at `(h, f)`. -/
theorem matmul_k_apply (a : FVec Ideal S6400x128 .bf16) (b : FVec Ideal S128x128 .bf16) (r : Fin 6400) (h : Fin 128) :
    matmul Dk none a b (constant (F := Ideal) S6400x128 .f32 0x00000000#32) (ix2 r h) = ∑ f : Fin 128, a (ix2 r f) * b (ix2 h f) := by
  refine (Ideal.matmul_constant_zero_apply Dk none a b (ix2 r h)).trans ?_
  rw [← Equiv.sum_comp (contrEquiv1 Dk 128 rfl rfl).symm]
  refine Finset.sum_congr rfl fun k _ => ?_
  have hk := contrEquiv1_symm_val Dk 128 rfl rfl k
  have el : Dk.lhsIdx (ix2 r h) ((contrEquiv1 Dk 128 rfl rfl).symm k) = ix2 r k := funext fun ax => Fin.ext (by
    match ax with
    | ⟨0, _⟩ => exact Dk_lhs0 _ _
    | ⟨1, _⟩ => exact (Dk_lhs1 _ _).trans hk)
  have er : Dk.rhsIdx (ix2 r h) ((contrEquiv1 Dk 128 rfl rfl).symm k) = ix2 h k := funext fun ax => Fin.ext (by
    match ax with
    | ⟨0, _⟩ => exact Dk_rhs0 _ _
    | ⟨1, _⟩ => exact (Dk_rhs1 _ _).trans hk)
  rw [el, er]

/-! ## The stored value in stages -/

/-- The query block times the query half of the first weight matrix: `[128, 128]`. -/
def projQ (x0 : Vec Ideal S128x128 .f32) (x3 : Vec Ideal S128x256 .f32) : FVec Ideal S128x128 .f32 :=
  matmul Dq none (truncf .bf16 x0 bitsLt_bf16_f32)
    (extractStridedSlice S128x128 ![0, 0] (truncf .bf16 x3 bitsLt_bf16_f32) slices_S128x256_o0_0_S128x128)
    (constant (F := Ideal) S128x128 .f32 0x00000000#32)

/-- The key block, its two leading axes folded together, times the key half of the first weight matrix: `[6400, 128]`. -/
def projK (x1 : Vec Ideal S128x50x128 .f32) (x3 : Vec Ideal S128x256 .f32) : FVec Ideal S6400x128 .f32 :=
  matmul Dk none (truncf .bf16 (shapeCast S6400x128 x1 shapeCasts_S128x50x128_S6400x128) bitsLt_bf16_f32)
    (extractStridedSlice S128x128 ![0, 128] (truncf .bf16 x3 bitsLt_bf16_f32) slices_S128x256_o0_128_S128x128)
    (constant (F := Ideal) S6400x128 .f32 0x00000000#32)

/-- The hidden layer `[128, 50, 128]`: the ReLU of the key projection plus the query projection spread over the keys. -/
def hid (x0 : Vec Ideal S128x128 .f32) (x1 : Vec Ideal S128x50x128 .f32) (x3 : Vec Ideal S128x256 .f32) : FVec Ideal S128x50x128 .f32 :=
  maximumf
    (addf (shapeCast S128x50x128 (projK x1 x3) shapeCasts_S6400x128_S128x50x128)
      (broadcastTo S128x50x128 (shapeCast S128x1x128 (projQ x0 x3) shapeCasts_S128x128_S128x1x128) broadcasts_S128x1x128_S128x50x128))
    (broadcast S128x50x128 (Scalar.ofBits (F := Ideal) .f32 0x00000000#32))

/-- The scores `[128, 50, 1]`: the hidden layer times the second weight row, summed over the hidden units. -/
def sco (x0 : Vec Ideal S128x128 .f32) (x1 : Vec Ideal S128x50x128 .f32) (x3 : Vec Ideal S128x256 .f32) (x4 : Vec Ideal S1x128 .f32) :
    FVec Ideal S128x50x1 .f32 :=
  shapeCast S128x50x1
    (multiReduction .add [2] S128x50
      (mulf (hid x0 x1 x3) (broadcastTo S128x50x128 (shapeCast S1x1x128 x4 shapeCasts_S1x128_S1x1x128) broadcasts_S1x1x128_S128x50x128))
      0x00000000#32 reduces_S128x50x128_S128x50 (.inl rfl) rfl)
    shapeCasts_S128x50_S128x50x1

/-- The exponentials `[128, 50, 1]` of the scores less their row's maximum. -/
def expo (s : FVec Ideal S128x50x1 .f32) : FVec Ideal S128x50x1 .f32 :=
  exp (subf s
    (broadcastTo S128x50x1
      (shapeCast S128x1x1 (multiReduction .maximumf [1] S128x1 s 0xFF800000#32 reduces_S128x50x1_S128x1 (.inl rfl) rfl) shapeCasts_S128x1_S128x1x1)
      broadcasts_S128x1x1_S128x50x1))

/-- The weights `[128, 50, 1]`: each exponential over its row's sum. -/
def wgt (e : FVec Ideal S128x50x1 .f32) : FVec Ideal S128x50x1 .f32 :=
  divf e
    (broadcastTo S128x50x1
      (shapeCast S128x1x1 (multiReduction .add [1] S128x1 e 0x00000000#32 reduces_S128x50x1_S128x1 (.inl rfl) rfl) shapeCasts_S128x1_S128x1x1)
      broadcasts_S128x1x1_S128x50x1)

/-- The body's stored value is the value block times the weights spread over the lanes, summed over the keys. -/
theorem pay_stages (x0 : Vec Ideal S128x128 .f32) (x1 x2 : Vec Ideal S128x50x128 .f32) (x3 : Vec Ideal S128x256 .f32) (x4 : Vec Ideal S1x128 .f32) :
    k0_pay1 x0 x1 x2 x3 x4
      = multiReduction .add [1] S128x128
          (mulf x2 (broadcastTo S128x50x128 (wgt (expo (sco x0 x1 x3 x4))) broadcasts_S128x50x1_S128x50x128))
          0x00000000#32 reduces_S128x50x128_S128x128 (.inl rfl) rfl := rfl

/-! ## Each stage at coordinates -/

theorem projQ_apply (x0 : Vec Ideal S128x128 .f32) (x3 : Vec Ideal S128x256 .f32) (p h : Fin 128) :
    projQ x0 x3 (ix2 p h) = ∑ f : Fin 128, x0 (ix2 p f) * x3 (ix2 h (lo f)) := by
  unfold projQ
  refine (matmul_q_apply _ _ p h).trans (Finset.sum_congr rfl fun f _ => ?_)
  exact congrArg (x0 (ix2 p f) * ·) (slice2_axis1_apply 0 _ _ h f (lo f) (Nat.zero_add _).symm)

theorem projK_apply (x1 : Vec Ideal S128x50x128 .f32) (x3 : Vec Ideal S128x256 .f32) (p : Fin 128) (m : Fin 50) (h : Fin 128)
    (r : Fin 6400) (hr : r.val = p.val * 50 + m.val) :
    projK x1 x3 (ix2 r h) = ∑ f : Fin 128, x1 (ix3 p m f) * x3 (ix2 h (hi f)) := by
  unfold projK
  refine (matmul_k_apply _ _ r h).trans (Finset.sum_congr rfl fun f _ => ?_)
  exact congrArg₂ (· * ·) (shapeCast_abc_nc_apply x1 _ p m f r hr) (slice2_axis1_apply 128 _ _ h f (hi f) rfl)

theorem hid_apply (x0 : Vec Ideal S128x128 .f32) (x1 : Vec Ideal S128x50x128 .f32) (x3 : Vec Ideal S128x256 .f32)
    (p : Fin 128) (m : Fin 50) (h : Fin 128) :
    hid x0 x1 x3 (ix3 p m h)
      = hiddenUnit (fun f => x0 (ix2 p f)) (fun m f => x1 (ix3 p m f)) (fun h f => x3 (ix2 h f)) m h := by
  have eK : shapeCast S128x50x128 (projK x1 x3) shapeCasts_S6400x128_S128x50x128 (ix3 p m h)
      = ∑ f : Fin 128, x1 (ix3 p m f) * x3 (ix2 h (hi f)) :=
    (shapeCast_nc_abc_apply (projK x1 x3) _ p m h ⟨p.val * 50 + m.val, by have := p.isLt; have := m.isLt; omega⟩ rfl).trans
      (projK_apply x1 x3 p m h _ rfl)
  have eQ : broadcastTo S128x50x128 (shapeCast S128x1x128 (projQ x0 x3) shapeCasts_S128x128_S128x1x128) broadcasts_S128x1x128_S128x50x128 (ix3 p m h)
      = ∑ f : Fin 128, x0 (ix2 p f) * x3 (ix2 h (lo f)) :=
    (broadcastTo_a1c_abc_apply _ _ p m h).trans ((shapeCast_ac_a1c_apply (projQ x0 x3) _ p 0 h).trans (projQ_apply x0 x3 p h))
  unfold hid hiddenUnit
  exact congrArg₂ max (congrArg₂ (· + ·) eK eQ) rfl

theorem sco_apply (x0 : Vec Ideal S128x128 .f32) (x1 : Vec Ideal S128x50x128 .f32) (x3 : Vec Ideal S128x256 .f32) (x4 : Vec Ideal S1x128 .f32)
    (p : Fin 128) (m : Fin 50) (u : Fin 1) :
    sco x0 x1 x3 x4 (ix3 p m u)
      = score (fun f => x0 (ix2 p f)) (fun m f => x1 (ix3 p m f)) (fun h f => x3 (ix2 h f)) (fun h => x4 (ix2 (0 : Fin 1) h)) m := by
  unfold sco score
  refine (shapeCast_ab_ab1_apply _ _ p m u).trans ?_
  refine (multiReduction_add_last _ _ _ _ _ p m).trans (Finset.sum_congr rfl fun h _ => ?_)
  exact congrArg₂ (· * ·) (hid_apply x0 x1 x3 p m h)
    ((broadcastTo_11c_abc_apply _ _ p m h).trans (shapeCast_ab_1ab_apply x4 _ 0 0 h))

theorem expo_apply (s : FVec Ideal S128x50x1 .f32) (p : Fin 128) (m : Fin 50) :
    expo s (ix3 p m (0 : Fin 1))
      = Ideal.exp (s (ix3 p m (0 : Fin 1)) - (Finset.univ : Finset (Fin 50)).fold max negInfW (fun k => s (ix3 p k (0 : Fin 1)))) := by
  have eM : broadcastTo S128x50x1
        (shapeCast S128x1x1 (multiReduction .maximumf [1] S128x1 s 0xFF800000#32 reduces_S128x50x1_S128x1 (.inl rfl) rfl) shapeCasts_S128x1_S128x1x1)
        broadcasts_S128x1x1_S128x50x1 (ix3 p m (0 : Fin 1))
      = (Finset.univ : Finset (Fin 50)).fold max negInfW (fun k => s (ix3 p k (0 : Fin 1))) :=
    (broadcastTo_a1c_abc_apply _ _ p m (0 : Fin 1)).trans
      ((shapeCast_ab_ab1_apply _ _ p (0 : Fin 1) (0 : Fin 1)).trans (multiReduction_max_mid s _ _ _ _ p (0 : Fin 1)))
  unfold expo
  exact congrArg (fun z => Ideal.exp (s (ix3 p m (0 : Fin 1)) - z)) eM

theorem wgt_apply (e : FVec Ideal S128x50x1 .f32) (p : Fin 128) (m : Fin 50) :
    wgt e (ix3 p m (0 : Fin 1)) = Ideal.div (e (ix3 p m (0 : Fin 1))) (∑ k : Fin 50, e (ix3 p k (0 : Fin 1))) := by
  have eS : broadcastTo S128x50x1
        (shapeCast S128x1x1 (multiReduction .add [1] S128x1 e 0x00000000#32 reduces_S128x50x1_S128x1 (.inl rfl) rfl) shapeCasts_S128x1_S128x1x1)
        broadcasts_S128x1x1_S128x50x1 (ix3 p m (0 : Fin 1))
      = ∑ k : Fin 50, e (ix3 p k (0 : Fin 1)) :=
    (broadcastTo_a1c_abc_apply _ _ p m (0 : Fin 1)).trans
      ((shapeCast_ab_ab1_apply _ _ p (0 : Fin 1) (0 : Fin 1)).trans (multiReduction_add_mid e _ _ _ _ p (0 : Fin 1)))
  unfold wgt
  exact congrArg (fun z => Ideal.div (e (ix3 p m (0 : Fin 1))) z) eS

/-! ## The stored value at `(p, d)` is the row function of row `p` of the blocks -/

theorem pay_row (x0 : Vec Ideal S128x128 .f32) (x1 x2 : Vec Ideal S128x50x128 .f32) (x3 : Vec Ideal S128x256 .f32) (x4 : Vec Ideal S1x128 .f32)
    (p d : Fin 128) :
    k0_pay1 x0 x1 x2 x3 x4 (ix2 p d)
      = rowOut (fun f => x0 (ix2 p f)) (fun m f => x1 (ix3 p m f)) (fun m f => x2 (ix3 p m f)) (fun h f => x3 (ix2 h f))
          (fun h => x4 (ix2 (0 : Fin 1) h)) d := by
  have hs : ∀ k : Fin 50, sco x0 x1 x3 x4 (ix3 p k (0 : Fin 1))
      = score (fun f => x0 (ix2 p f)) (fun m f => x1 (ix3 p m f)) (fun h f => x3 (ix2 h f)) (fun h => x4 (ix2 (0 : Fin 1) h)) k :=
    fun k => sco_apply x0 x1 x3 x4 p k 0
  have he : ∀ k : Fin 50, expo (sco x0 x1 x3 x4) (ix3 p k (0 : Fin 1))
      = Ideal.exp (score (fun f => x0 (ix2 p f)) (fun m f => x1 (ix3 p m f)) (fun h f => x3 (ix2 h f)) (fun h => x4 (ix2 (0 : Fin 1) h)) k
          - top (score (fun f => x0 (ix2 p f)) (fun m f => x1 (ix3 p m f)) (fun h f => x3 (ix2 h f)) (fun h => x4 (ix2 (0 : Fin 1) h)))) :=
    fun k => (expo_apply _ p k).trans
      (congrArg₂ (fun a b => Ideal.exp (a - b)) (hs k) (Finset.fold_congr fun k' _ => hs k'))
  rw [pay_stages]
  unfold rowOut
  refine (multiReduction_add_mid _ _ _ _ _ p d).trans (Finset.sum_congr rfl fun m _ => ?_)
  refine congrArg (x2 (ix3 p m d) * ·) ?_
  refine (broadcastTo_ab1_abc_apply _ _ p m d).trans ((wgt_apply _ p m).trans ?_)
  unfold weight
  exact congrArg₂ Ideal.div (he m) (Finset.sum_congr rfl fun k _ => he k)

end Cert.KernelIdeal.RowValue

end
-- ==== Proof.ArrayValue.lean ====
/-
  From the blocks to the whole result array.

  The grid has 128 points; point `t` stages rows `128·t … 128·t + 127` of the queries, keys and values, the two weight
  matrices whole, and writes back rows `128·t … 128·t + 127` of the result. Row `p` of what it writes is the row function of
  batch row `128·t + p` (the body's stored value at an entry, `RowValue.pay_row`, with each block read where it sits in its
  array), which is block `t` of the whole-array function `RowSpec.G`. The 128 blocks tile the 16384 rows — row `r` is in the
  block of point `r / 128` — so after the run the result array is `G` of the argument arrays.
-/
import proofs.«182174_j14654428414369_2_alg».proof.Proof.Gen.KernelIdeal.Value
import proofs.«182174_j14654428414369_2_alg».proof.Proof.KernelRow

set_option maxRecDepth 16384

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.RowSpec Cert.KernelIdeal.RowValue
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the result and the three batch inputs are on block `t` of their leading axis at
    point `t`, and the two weight matrices are one block. -/
theorem idx_facts : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem lt_N (t : Fin cfg0.N) : t.val < 128 := lt_of_lt_of_eq t.isLt (N_0 : cfg0.N = 128)

/-- The batch row that row `p` of point `t`'s blocks is. -/
def row (t : Fin cfg0.N) (p : Fin 128) : Fin 16384 :=
  ⟨t.val * 128 + p.val, by have := lt_N t; have := p.isLt; omega⟩

/-! ## Each staged block read where it sits in its array -/

theorem iblk0_apply (c : Dev nD) (t : Fin cfg0.N) (p f : Fin 128) :
    (iblk m c 0 t : Vec Ideal S128x128 .f32) (ix2 p f) = V m c main_arg0 (ix2 (row t p) f) := by
  obtain ⟨-, -, e0, e1, -⟩ := idx_facts t
  show V m c main_arg0 (((cfg0.win 0).blk t).view.emb (ix2 p f)) = _
  refine congrArg (V m c main_arg0) (funext fun a => Fin.ext ?_)
  match a with
  | ⟨0, _⟩ => show win0_0.index t (0 : Fin 2) * 128 + 1 * p.val = t.val * 128 + p.val; omega
  | ⟨1, _⟩ => show win0_0.index t (1 : Fin 2) * 128 + 1 * f.val = f.val; omega

theorem iblk1_apply (c : Dev nD) (t : Fin cfg0.N) (p : Fin 128) (k : Fin 50) (f : Fin 128) :
    (iblk m c 1 t : Vec Ideal S128x50x128 .f32) (ix3 p k f) = V m c main_arg1 (ix3 (row t p) k f) := by
  obtain ⟨-, -, -, -, e0, e1, e2, -⟩ := idx_facts t
  show V m c main_arg1 (((cfg0.win 1).blk t).view.emb (ix3 p k f)) = _
  refine congrArg (V m c main_arg1) (funext fun a => Fin.ext ?_)
  match a with
  | ⟨0, _⟩ => show win0_1.index t (0 : Fin 3) * 128 + 1 * p.val = t.val * 128 + p.val; omega
  | ⟨1, _⟩ => show win0_1.index t (1 : Fin 3) * 50 + 1 * k.val = k.val; omega
  | ⟨2, _⟩ => show win0_1.index t (2 : Fin 3) * 128 + 1 * f.val = f.val; omega

theorem iblk2_apply (c : Dev nD) (t : Fin cfg0.N) (p : Fin 128) (k : Fin 50) (f : Fin 128) :
    (iblk m c 2 t : Vec Ideal S128x50x128 .f32) (ix3 p k f) = V m c main_arg2 (ix3 (row t p) k f) := by
  obtain ⟨-, -, -, -, -, -, -, e0, e1, e2, -⟩ := idx_facts t
  show V m c main_arg2 (((cfg0.win 2).blk t).view.emb (ix3 p k f)) = _
  refine congrArg (V m c main_arg2) (funext fun a => Fin.ext ?_)
  match a with
  | ⟨0, _⟩ => show win0_2.index t (0 : Fin 3) * 128 + 1 * p.val = t.val * 128 + p.val; omega
  | ⟨1, _⟩ => show win0_2.index t (1 : Fin 3) * 50 + 1 * k.val = k.val; omega
  | ⟨2, _⟩ => show win0_2.index t (2 : Fin 3) * 128 + 1 * f.val = f.val; omega

theorem iblk3_apply (c : Dev nD) (t : Fin cfg0.N) (h : Fin 128) (f : Fin 256) :
    (iblk m c 3 t : Vec Ideal S128x256 .f32) (ix2 h f) = V m c main_arg3 (ix2 h f) := by
  obtain ⟨-, -, -, -, -, -, -, -, -, -, e0, e1, -⟩ := idx_facts t
  show V m c main_arg3 (((cfg0.win 3).blk t).view.emb (ix2 h f)) = _
  refine congrArg (V m c main_arg3) (funext fun a => Fin.ext ?_)
  match a with
  | ⟨0, _⟩ => show win0_3.index t (0 : Fin 2) * 128 + 1 * h.val = h.val; omega
  | ⟨1, _⟩ => show win0_3.index t (1 : Fin 2) * 256 + 1 * f.val = f.val; omega

theorem iblk4_apply (c : Dev nD) (t : Fin cfg0.N) (u : Fin 1) (h : Fin 128) :
    (iblk m c 4 t : Vec Ideal S1x128 .f32) (ix2 u h) = V m c main_arg4 (ix2 u h) := by
  obtain ⟨-, -, -, -, -, -, -, -, -, -, -, -, e0, e1⟩ := idx_facts t
  show V m c main_arg4 (((cfg0.win 4).blk t).view.emb (ix2 u h)) = _
  refine congrArg (V m c main_arg4) (funext fun a => Fin.ext ?_)
  match a with
  | ⟨0, _⟩ => show win0_4.index t (0 : Fin 2) * 1 + 1 * u.val = u.val; omega
  | ⟨1, _⟩ => show win0_4.index t (1 : Fin 2) * 128 + 1 * h.val = h.val; omega

/-! ## What point `t` writes back is block `t` of `G` -/

/-- The body's stored value over point `t`'s blocks, at a block entry, is `G` of the arrays at the array entry under it. -/
theorem point_eq (c : Dev nD) (t : Fin cfg0.N) (y : S128x128.Idx) :
    k0_pay1 (iblk m c 0 t) (iblk m c 1 t) (iblk m c 2 t) (iblk m c 3 t) (iblk m c 4 t) y
      = G (V m c main_arg0) (V m c main_arg1) (V m c main_arg2) (V m c main_arg3) (V m c main_arg4) (((cfg0.win 5).blk t).view.emb y) := by
  obtain ⟨p, d, rfl⟩ : ∃ (p : Fin 128) (d : Fin 128), y = ix2 p d := ⟨y 0, y 1, eq_ix2 y⟩
  obtain ⟨e0, e1, -⟩ := idx_facts t
  have he : ((cfg0.win 5).blk t).view.emb (ix2 p d) = ix2 (row t p) d := funext fun a => Fin.ext (by
    match a with
    | ⟨0, _⟩ => show win0_5.index t (0 : Fin 2) * 128 + 1 * p.val = t.val * 128 + p.val; omega
    | ⟨1, _⟩ => show win0_5.index t (1 : Fin 2) * 128 + 1 * d.val = d.val; omega)
  have r0 : (fun f : Fin 128 => (iblk m c 0 t : Vec Ideal S128x128 .f32) (ix2 p f)) = fun f => V m c main_arg0 (ix2 (row t p) f) :=
    funext fun f => iblk0_apply m c t p f
  have r1 : (fun (k : Fin 50) (f : Fin 128) => (iblk m c 1 t : Vec Ideal S128x50x128 .f32) (ix3 p k f)) = fun k f => V m c main_arg1 (ix3 (row t p) k f) :=
    funext fun k => funext fun f => iblk1_apply m c t p k f
  have r2 : (fun (k : Fin 50) (f : Fin 128) => (iblk m c 2 t : Vec Ideal S128x50x128 .f32) (ix3 p k f)) = fun k f => V m c main_arg2 (ix3 (row t p) k f) :=
    funext fun k => funext fun f => iblk2_apply m c t p k f
  have r3 : (fun (h : Fin 128) (f : Fin 256) => (iblk m c 3 t : Vec Ideal S128x256 .f32) (ix2 h f)) = fun h f => V m c main_arg3 (ix2 h f) :=
    funext fun h => funext fun f => iblk3_apply m c t h f
  have r4 : (fun h : Fin 128 => (iblk m c 4 t : Vec Ideal S1x128 .f32) (ix2 (0 : Fin 1) h)) = fun h => V m c main_arg4 (ix2 (0 : Fin 1) h) :=
    funext fun h => iblk4_apply m c t 0 h
  refine (pay_row (iblk m c 0 t) (iblk m c 1 t) (iblk m c 2 t) (iblk m c 3 t) (iblk m c 4 t) p d).trans ?_
  rw [he]
  refine Eq.trans ?_ (G_ix2 (V m c main_arg0) (V m c main_arg1) (V m c main_arg2) (V m c main_arg3) (V m c main_arg4) (row t p) d).symm
  rw [r0, r1, r2, r3, r4]

/-- WHAT POINT `t` WRITES BACK is block `t` of `G` of the argument arrays. -/
theorem flushed_eq (c : Dev nD) (t : Fin cfg0.N) :
    (dats m 0 c).flushed 5 t
      = ((cfg0.win 5).blk t).view.read (Elt Ideal) (G (V m c main_arg0) (V m c main_arg1) (V m c main_arg2) (V m c main_arg3) (V m c main_arg4)) := by
  rw [Value.flushed5]
  unfold out0_5
  rw [View.canon_unit_zero hz2]
  simp only [View.ld_unit_zero (S := S128x128) hz2, View.ld_unit_zero (S := S128x50x128) hz3, View.ld_unit_zero (S := S128x256) hz2,
    View.ld_unit_zero (S := S1x128) hz2]
  funext y
  exact point_eq m c t y

/-! ## The blocks tile the array -/

/-- An index of the array is in point `t`'s block iff each coordinate is in the block's range on its axis. -/
theorem mem_blk (t : Fin cfg0.N) (i : S16384x128.Idx) :
    i ∈ ((cfg0.win 5).blk t).view.set ↔ ∀ a : Fin 2, win0_5.index t a * S128x128.size a ≤ (i a).val ∧ (i a).val < win0_5.index t a * S128x128.size a + S128x128.size a := by
  show i ∈ ((View.whole main_v0).slice (win0_5.rect t)).set ↔ _
  rw [View.set_slice_whole, Rect.mem_set_unit]
  exact Iff.rfl

/-- Row `r` of the result is in the block of point `r / 128`. -/
theorem cover (i : S16384x128.Idx) : ∃ t : Fin cfg0.N, (cfg0.win 5).flush t = true ∧ i ∈ ((cfg0.win 5).blk t).view.set := by
  have hi0 : (i 0).val < 16384 := (i 0).isLt
  have hi1 : (i 1).val < 128 := (i 1).isLt
  have hN : cfg0.N = 128 := N_0
  obtain ⟨t, htv⟩ : ∃ t : Fin cfg0.N, t.val = (i 0).val / 128 := ⟨⟨(i 0).val / 128, by rw [hN]; omega⟩, rfl⟩
  obtain ⟨e0, e1, -⟩ := idx_facts t
  refine ⟨t, flush0_5 t, ?_⟩
  rw [mem_blk]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 128 ≤ (i 1).val ∧ (i 1).val < win0_5.index t (1 : Fin 2) * 128 + 128; omega

/-- THE RESULT ARRAY after the run is `G` of the argument arrays. -/
theorem final (c : Dev nD) :
    (dats m 0 c).arrAt 5 cfg0.N
      = G (m ((c : Thread nD τ).loc main_arg0)) (m ((c : Thread nD τ).loc main_arg1)) (m ((c : Thread nD τ).loc main_arg2))
          (m ((c : Thread nD τ).loc main_arg3)) (m ((c : Thread nD τ).loc main_arg4)) :=
  (dats m 0 c).arrAt_eq_of_cover 5 _ (fun t _ => flushed_eq m c t) cover

/-- The kernel's run: the result array ends at `G` of the argument arrays, which end unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.ArrayValue

end
-- ==== Proof.RefRow.lean ====
/-
  The reference's result, read one entry at a time.

  The reference works on the whole batch `[16384, …]`: it lays the query beside each key (a concatenation along the last
  axis, 256 columns), contracts the 256 columns with the first weight matrix, applies the ReLU, contracts with the
  second weight row, takes the softmax over the fifty keys (maximum subtracted; the maximum taken once more with its own
  starting value), and averages the values. Entry `(b, d)` is `RowSpec.rowOut` of row `b` at `d`: the contraction over the
  256 columns splits into the query's 128 and the key's 128 (`RowSpec.sum_halves`, the concatenation read on each half),
  the two halves are added in the other order than the row function adds them (addition commutes), the second maximum
  changes nothing (`RowSpec.max_top`), and the two sums' initial zero adds nothing.
-/
import proofs.«182174_j14654428414369_2_alg».proof.Proof.Gen.ReferenceIdeal.Read
import proofs.«182174_j14654428414369_2_alg».proof.Proof.RowSpec
import proofs.«182174_j14654428414369_2_alg».proof.Proof.LibRank3Layout

noncomputable section

open scoped BigOperators

namespace Cert.ReferenceIdeal.RowValue

open Cert.ReferenceIdeal Cert.ReferenceIdeal.Gen Cert.ReferenceIdeal.Read Idealize.ShloMosaic Idealize.ShloMosaic.ValueIdx
open Cert.RowSpec Cert.LibRank3

/-- The argument arrays' types. -/
abbrev A0 := (⟨S16384x128, .f32⟩ : BufTy).Contents (Elt Ideal)
abbrev A1 := (⟨S16384x50x128, .f32⟩ : BufTy).Contents (Elt Ideal)
abbrev A3 := (⟨S128x256, .f32⟩ : BufTy).Contents (Elt Ideal)
abbrev A4 := (⟨S1x128, .f32⟩ : BufTy).Contents (Elt Ideal)

/-- The query laid beside the keys, read at `(b, m, f)`: the query's row `b` at `f`. -/
theorem v1_apply (x0 : A0) (b : Fin 16384) (m : Fin 50) (f : Fin 128) : val_main_v1 (F := Ideal) x0 (ix3 b m f) = x0 (ix2 b f) :=
  (val_main_v1_apply x0 _).trans ((val_main_v0_apply x0 _).trans
    (congrArg x0 (funext fun a => Fin.ext (by match a with | ⟨0, _⟩ => rfl | ⟨1, _⟩ => rfl))))

/-- The concatenation on its first 128 columns is the query … -/
theorem v2_lo (x0 : A0) (x1 : A1) (b : Fin 16384) (m : Fin 50) (f : Fin 128) :
    val_main_v2 (F := Ideal) x0 x1 (ix3 b m (lo f)) = x0 (ix2 b f) := by
  unfold val_main_v2
  refine (concatenate_pair_apply_left (t := S16384x50x256) (s₁ := S16384x50x128) (s₂ := S16384x50x128) 2 _ _ _ (ix3 b m (lo f)) rfl (ix3 b m f) (fun ax => by
    match ax with
    | ⟨0, _⟩ => rfl
    | ⟨1, _⟩ => rfl
    | ⟨2, _⟩ => rfl)).trans (v1_apply x0 b m f)

/-- … and on its last 128 columns the key. -/
theorem v2_hi (x0 : A0) (x1 : A1) (b : Fin 16384) (m : Fin 50) (f : Fin 128) :
    val_main_v2 (F := Ideal) x0 x1 (ix3 b m (hi f)) = x1 (ix3 b m f) := by
  unfold val_main_v2
  exact concatenate_pair_apply_right (t := S16384x50x256) (s₁ := S16384x50x128) (s₂ := S16384x50x128) 2 _ _ _ (ix3 b m (hi f)) rfl rfl (ix3 b m f) (fun ax hne => by
    match ax with
    | ⟨0, _⟩ => rfl
    | ⟨1, _⟩ => rfl
    | ⟨2, _⟩ => exact absurd rfl hne) (Nat.add_comm _ _)

/-- The first contraction at `(b, m, h)`: the query's 128 columns, then the key's. -/
theorem v3_apply (x0 : A0) (x1 : A1) (x3 : A3) (b : Fin 16384) (m : Fin 50) (h : Fin 128) :
    val_main_v3 (F := Ideal) x0 x1 x3 (ix3 b m h)
      = (∑ f : Fin 128, x0 (ix2 b f) * x3 (ix2 h (lo f))) + ∑ f : Fin 128, x1 (ix3 b m f) * x3 (ix2 h (hi f)) := by
  refine (val_main_v3_apply x0 x1 x3 _).trans ?_
  refine (sum_halves fun c => val_main_v2 (F := Ideal) x0 x1 (lidx_main_v3 (ix3 b m h) c) * x3 (ridx_main_v3 (ix3 b m h) c)).trans ?_
  refine congrArg₂ (· + ·) (Finset.sum_congr rfl fun f _ => ?_) (Finset.sum_congr rfl fun f _ => ?_)
  · have e1 : lidx_main_v3 (ix3 b m h) (lo f) = ix3 b m (lo f) :=
      funext fun a => Fin.ext (by match a with | ⟨0, _⟩ => rfl | ⟨1, _⟩ => rfl | ⟨2, _⟩ => rfl)
    have e2 : ridx_main_v3 (ix3 b m h) (lo f) = ix2 h (lo f) :=
      funext fun a => Fin.ext (by match a with | ⟨0, _⟩ => rfl | ⟨1, _⟩ => rfl)
    rw [e1, e2, v2_lo]
  · have e1 : lidx_main_v3 (ix3 b m h) (hi f) = ix3 b m (hi f) :=
      funext fun a => Fin.ext (by match a with | ⟨0, _⟩ => rfl | ⟨1, _⟩ => rfl | ⟨2, _⟩ => rfl)
    have e2 : ridx_main_v3 (ix3 b m h) (hi f) = ix2 h (hi f) :=
      funext fun a => Fin.ext (by match a with | ⟨0, _⟩ => rfl | ⟨1, _⟩ => rfl)
    rw [e1, e2, v2_hi]

/-- The hidden layer at `(b, m, h)`. -/
theorem v4_apply (x0 : A0) (x1 : A1) (x3 : A3) (b : Fin 16384) (m : Fin 50) (h : Fin 128) :
    val_main_v4 (F := Ideal) x0 x1 x3 (ix3 b m h)
      = hiddenUnit (fun f => x0 (ix2 b f)) (fun m f => x1 (ix3 b m f)) (fun h f => x3 (ix2 h f)) m h := by
  have ez : val_main_call0_v0 (F := Ideal) (ix3 b m h) = zeroW := val_main_call0_v0_apply _
  refine (val_main_v4_apply x0 x1 x3 _).trans ?_
  unfold hiddenUnit
  exact congrArg₂ max ((v3_apply x0 x1 x3 b m h).trans (add_comm _ _)) ez

/-- The score at `(b, m)`. -/
theorem v5_apply (x0 : A0) (x1 : A1) (x3 : A3) (x4 : A4) (b : Fin 16384) (m : Fin 50) :
    val_main_v5 (F := Ideal) x0 x1 x3 x4 (ix3 b m (0 : Fin 1))
      = score (fun f => x0 (ix2 b f)) (fun m f => x1 (ix3 b m f)) (fun h f => x3 (ix2 h f)) (fun h => x4 (ix2 (0 : Fin 1) h)) m := by
  refine (val_main_v5_apply x0 x1 x3 x4 _).trans ?_
  unfold score
  refine Finset.sum_congr rfl fun h _ => ?_
  have e1 : lidx_main_v5 (ix3 b m (0 : Fin 1)) h = ix3 b m h :=
    funext fun a => Fin.ext (by match a with | ⟨0, _⟩ => rfl | ⟨1, _⟩ => rfl | ⟨2, _⟩ => rfl)
  have e2 : ridx_main_v5 (ix3 b m (0 : Fin 1)) h = ix2 (0 : Fin 1) h :=
    funext fun a => Fin.ext (by match a with | ⟨0, _⟩ => rfl | ⟨1, _⟩ => rfl)
  rw [e1, e2, v4_apply]

/-- The row's largest score, after the second maximum with the starting value. -/
theorem v8_apply (x0 : A0) (x1 : A1) (x3 : A3) (x4 : A4) (b : Fin 16384) :
    val_main_v8 (F := Ideal) x0 x1 x3 x4 (ix2 b (0 : Fin 1))
      = top (score (fun f => x0 (ix2 b f)) (fun m f => x1 (ix3 b m f)) (fun h f => x3 (ix2 h f)) (fun h => x4 (ix2 (0 : Fin 1) h))) := by
  have e7 : val_main_v7 (F := Ideal) (ix2 b (0 : Fin 1)) = negInfW := val_main_v7_apply _
  have e6 : val_main_v6 (F := Ideal) x0 x1 x3 x4 (ix2 b (0 : Fin 1))
      = top (score (fun f => x0 (ix2 b f)) (fun m f => x1 (ix3 b m f)) (fun h f => x3 (ix2 h f)) (fun h => x4 (ix2 (0 : Fin 1) h))) := by
    unfold val_main_v6
    refine (hostReduce_max_mid _ _ _ (by decide) _ b (0 : Fin 1)).trans ?_
    unfold top
    exact Finset.fold_congr fun k _ => v5_apply x0 x1 x3 x4 b k
  refine (val_main_v8_apply x0 x1 x3 x4 _).trans ?_
  exact (congrArg₂ max e7 e6).trans (max_top _)

/-- The exponential at `(b, m)`. -/
theorem v12_apply (x0 : A0) (x1 : A1) (x3 : A3) (x4 : A4) (b : Fin 16384) (m : Fin 50) :
    val_main_v12 (F := Ideal) x0 x1 x3 x4 (ix3 b m (0 : Fin 1))
      = Ideal.exp (score (fun f => x0 (ix2 b f)) (fun m f => x1 (ix3 b m f)) (fun h f => x3 (ix2 h f)) (fun h => x4 (ix2 (0 : Fin 1) h)) m
          - top (score (fun f => x0 (ix2 b f)) (fun m f => x1 (ix3 b m f)) (fun h f => x3 (ix2 h f)) (fun h => x4 (ix2 (0 : Fin 1) h)))) := by
  have e10 : val_main_v10 (F := Ideal) x0 x1 x3 x4 (ix3 b m (0 : Fin 1))
      = top (score (fun f => x0 (ix2 b f)) (fun m f => x1 (ix3 b m f)) (fun h f => x3 (ix2 h f)) (fun h => x4 (ix2 (0 : Fin 1) h))) :=
    (val_main_v10_apply x0 x1 x3 x4 _).trans ((val_main_v9_apply x0 x1 x3 x4 _).trans
      ((congrArg (val_main_v8 (F := Ideal) x0 x1 x3 x4)
        (funext fun a => Fin.ext (by match a with | ⟨0, _⟩ => rfl | ⟨1, _⟩ => rfl))).trans (v8_apply x0 x1 x3 x4 b)))
  refine (val_main_v12_apply x0 x1 x3 x4 _).trans ?_
  exact congrArg₂ (fun a c => Ideal.exp (a - c)) (v5_apply x0 x1 x3 x4 b m) e10

/-- The softmax weight at `(b, m)`. -/
theorem v16_apply (x0 : A0) (x1 : A1) (x3 : A3) (x4 : A4) (b : Fin 16384) (m : Fin 50) :
    val_main_v16 (F := Ideal) x0 x1 x3 x4 (ix3 b m (0 : Fin 1))
      = weight (score (fun f => x0 (ix2 b f)) (fun m f => x1 (ix3 b m f)) (fun h f => x3 (ix2 h f)) (fun h => x4 (ix2 (0 : Fin 1) h))) m := by
  have e13 : val_main_v13 (F := Ideal) x0 x1 x3 x4 (ix2 b (0 : Fin 1))
      = ∑ k : Fin 50, Ideal.exp (score (fun f => x0 (ix2 b f)) (fun m f => x1 (ix3 b m f)) (fun h f => x3 (ix2 h f)) (fun h => x4 (ix2 (0 : Fin 1) h)) k
          - top (score (fun f => x0 (ix2 b f)) (fun m f => x1 (ix3 b m f)) (fun h f => x3 (ix2 h f)) (fun h => x4 (ix2 (0 : Fin 1) h)))) := by
    refine (val_main_v13_apply x0 x1 x3 x4 _).trans ?_
    have ez : val_main_cst_1 (F := Ideal) (Shape.Idx.first h_S_) = 0 := Ideal.ofBits_zero_f32
    rw [ez, zero_add]
    refine Finset.sum_congr rfl fun k _ => ?_
    have e : idx_main_v13 (ix2 b (0 : Fin 1)) k = ix3 b k (0 : Fin 1) :=
      funext fun a => Fin.ext (by match a with | ⟨0, _⟩ => rfl | ⟨1, _⟩ => rfl | ⟨2, _⟩ => rfl)
    rw [e, v12_apply]
  have e15 : val_main_v15 (F := Ideal) x0 x1 x3 x4 (ix3 b m (0 : Fin 1)) = val_main_v13 (F := Ideal) x0 x1 x3 x4 (ix2 b (0 : Fin 1)) :=
    (val_main_v15_apply x0 x1 x3 x4 _).trans ((val_main_v14_apply x0 x1 x3 x4 _).trans
      (congrArg (val_main_v13 (F := Ideal) x0 x1 x3 x4)
        (funext fun a => Fin.ext (by match a with | ⟨0, _⟩ => rfl | ⟨1, _⟩ => rfl))))
  refine (val_main_v16_apply x0 x1 x3 x4 _).trans ?_
  unfold weight
  exact congrArg₂ Ideal.div (v12_apply x0 x1 x3 x4 b m) (e15.trans e13)

/-- The reference's result at `(b, d)` is the row function of row `b`. -/
theorem ref_row (x0 : A0) (x1 x2 : A1) (x3 : A3) (x4 : A4) (b : Fin 16384) (d : Fin 128) :
    val_main_v19 (F := Ideal) x0 x1 x2 x3 x4 (ix2 b d)
      = rowOut (fun f => x0 (ix2 b f)) (fun m f => x1 (ix3 b m f)) (fun m f => x2 (ix3 b m f)) (fun h f => x3 (ix2 h f))
          (fun h => x4 (ix2 (0 : Fin 1) h)) d := by
  refine (val_main_v19_apply x0 x1 x2 x3 x4 _).trans ?_
  have ez : val_main_cst_2 (F := Ideal) (Shape.Idx.first h_S_) = 0 := Ideal.ofBits_zero_f32
  rw [ez, zero_add]
  unfold rowOut
  refine Finset.sum_congr rfl fun k _ => ?_
  have e : idx_main_v19 (ix2 b d) k = ix3 b k d :=
    funext fun a => Fin.ext (by match a with | ⟨0, _⟩ => rfl | ⟨1, _⟩ => rfl | ⟨2, _⟩ => rfl)
  have e17 : val_main_v17 (F := Ideal) x0 x1 x3 x4 (ix3 b k d)
      = weight (score (fun f => x0 (ix2 b f)) (fun m f => x1 (ix3 b m f)) (fun h f => x3 (ix2 h f)) (fun h => x4 (ix2 (0 : Fin 1) h))) k :=
    (val_main_v17_apply x0 x1 x3 x4 _).trans
      ((congrArg (val_main_v16 (F := Ideal) x0 x1 x3 x4)
        (funext fun a => Fin.ext (by match a with | ⟨0, _⟩ => rfl | ⟨1, _⟩ => rfl | ⟨2, _⟩ => rfl))).trans (v16_apply x0 x1 x3 x4 b k))
  rw [e]
  exact (val_main_v18_apply x0 x1 x2 x3 x4 _).trans (congrArg (x2 (ix3 b k d) * ·) e17)

/-- The reference's result array is the whole-array function `RowSpec.G` of the arguments. -/
theorem ref_eq_G (x0 : A0) (x1 x2 : A1) (x3 : A3) (x4 : A4) : val_main_v19 (F := Ideal) x0 x1 x2 x3 x4 = G x0 x1 x2 x3 x4 := by
  funext i
  obtain ⟨b, d, rfl⟩ : ∃ (b : Fin 16384) (d : Fin 128), i = ix2 b d := ⟨i 0, i 1, eq_ix2 i⟩
  exact ref_row x0 x1 x2 x3 x4 b d

end Cert.ReferenceIdeal.RowValue

end
-- ==== Proof.lean ====
/-
  The kernel against its reference: one attention-pooling step per batch row.

  Both programs compute, for every batch row, a small scorer over the row's fifty keys (a hidden layer on the query laid
  beside each key, a ReLU, a second linear map), a softmax of the fifty scores, and the softmax-weighted average of the
  row's fifty values. The kernel holds 128 rows at a time and splits the first linear map into a query product and a key
  product; the reference contracts the concatenated 256 columns at once. Over the extended reals the two are one function
  of the five argument arrays, `RowSpec.G`:
  • the kernel's result array is `G` (`ArrayValue.run`: the body's stored value read at an entry, each block read where it
    sits in its array, the blocks tiling the result);
  • the reference's result is `G` (`RowValue.ref_eq_G`, over its run read one operation at a time): a sum over 256 columns
    is the sum over the first 128 plus the sum over the last 128, addition commutes, and a maximum taken once more with
    its fold's starting value changes nothing.
  No finiteness of the inputs is used: every law above holds at the infinities too.
  The three frames are the generated ones (the reference's its generated run with the result dropped), and the kernel's
  idealization rewrote nothing, so there is nothing to preserve.
-/
import proofs.«182174_j14654428414369_2_alg».proof.Defs
import proofs.«182174_j14654428414369_2_alg».proof.Proof.Gen.Kernel
import proofs.«182174_j14654428414369_2_alg».proof.Proof.Gen.Kernel.Skeleton
import proofs.«182174_j14654428414369_2_alg».proof.Proof.Gen.Kernel.Launch
import proofs.«182174_j14654428414369_2_alg».proof.Proof.Gen.Kernel.Points
import proofs.«182174_j14654428414369_2_alg».proof.Proof.Gen.Kernel.Frame
import proofs.«182174_j14654428414369_2_alg».proof.Proof.Gen.KernelIdeal
import proofs.«182174_j14654428414369_2_alg».proof.Proof.Gen.KernelIdeal.Skeleton
import proofs.«182174_j14654428414369_2_alg».proof.Proof.Gen.KernelIdeal.Launch
import proofs.«182174_j14654428414369_2_alg».proof.Proof.Gen.KernelIdeal.Points
import proofs.«182174_j14654428414369_2_alg».proof.Proof.Gen.KernelIdeal.Frame
import proofs.«182174_j14654428414369_2_alg».proof.Proof.Gen.ReferenceIdeal
import proofs.«182174_j14654428414369_2_alg».proof.Proof.Gen.Pre_finite_inputs
import proofs.«182174_j14654428414369_2_alg».proof.Proof.Gen.KernelIdeal.Value
import proofs.«182174_j14654428414369_2_alg».proof.Proof.Gen.ReferenceIdeal.Run
import proofs.«182174_j14654428414369_2_alg».proof.Proof.Gen.ReferenceIdeal.Read
import proofs.«182174_j14654428414369_2_alg».proof.Proof.ArrayValue
import proofs.«182174_j14654428414369_2_alg».proof.Proof.RefRow
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both runs end with the result array at `RowSpec.G` of the arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v19_eq _ _ _ _ _).trans ((Cert.ReferenceIdeal.RowValue.ref_eq_G _ _ _ _ _).trans ?_)
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
